-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1x256 : Shape := ⟨2, ![1, 256]⟩
abbrev S256x64 : Shape := ⟨2, ![256, 64]⟩
abbrev S4x256x64 : Shape := ⟨3, ![4, 256, 64]⟩
abbrev S10x64 : Shape := ⟨2, ![10, 64]⟩
abbrev S10x256x64 : Shape := ⟨3, ![10, 256, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256x64 : S_.BroadcastsInDim S256x64 (![] : Fin 0 → Fin S256x64.rank)
  reducesTo_S256x64_S_d0_1 : S256x64.ReducesTo [0, 1] S_
  bcast_S_S4x256x64 : S_.BroadcastsInDim S4x256x64 (![] : Fin 0 → Fin S4x256x64.rank)
  reducesTo_S4x256x64_S_d0_1_2 : S4x256x64.ReducesTo [0, 1, 2] S_
  bcast_S_S10x64 : S_.BroadcastsInDim S10x64 (![] : Fin 0 → Fin S10x64.rank)
  reducesTo_S10x64_S_d0_1 : S10x64.ReducesTo [0, 1] S_
  bcast_S_S10x256x64 : S_.BroadcastsInDim S10x256x64 (![] : Fin 0 → Fin S10x256x64.rank)
  reducesTo_S10x256x64_S_d0_1_2 : S10x256x64.ReducesTo [0, 1, 2] S_

variable [Facts]

def fn_part1 {F : FTy → Type} [FloatOps F] (main_arg4 : FVec F S10x64 .f32) (main_arg5 : FVec F S10x256x64 .f32) (main_v13 : IVec S_ 1) (main_v16 : IVec S4x256x64 1) : IVec S_ 1 :=
  let main_c_5 : IVec S_ 1 := constantI S_ 1 1#1
  let main_v17 : IVec S_ 1 := (fun x v => Host.reduce IntOp.andi x v reducesTo_S4x256x64_S_d0_1_2 h_S_) main_v16 main_c_5
  let main_v18 : IVec S_ 1 := andi main_v13 main_v17
  let main_v19 : FVec F S10x64 .f32 := Host.absf main_arg4
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  let main_v24 : FVec F S10x256x64 .f32 := Host.absf main_arg5
  let main_cst_8 : FVec F S_ .f32 := constant S_ .f32 0x7F800000#32
  let main_v25 : FVec F S10x256x64 .f32 := broadcastInDim S10x256x64 ![] bcast_S_S10x256x64 main_cst_8
  let main_v26 : IVec S10x256x64 1 := cmpf .olt main_v24 main_v25
  let main_c_9 : IVec S_ 1 := constantI S_ 1 1#1
  let main_v27 : IVec S_ 1 := (fun x v => Host.reduce IntOp.andi x v reducesTo_S10x256x64_S_d0_1_2 h_S_) main_v26 main_c_9
  let main_v28 : IVec S_ 1 := andi main_v23 main_v27
  main_v28

def fn {F : FTy → Type} [FloatOps F] (main_arg0 : FVec F S65536x64 .f32) (main_arg1 : FVec F S1x256 .f32) (main_arg2 : FVec F S256x64 .f32) (main_arg3 : FVec F S4x256x64 .f32) (main_arg4 : FVec F S10x64 .f32) (main_arg5 : FVec F S10x256x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S4x256x64 .f32 := Host.absf main_arg3
  let main_cst_4 : FVec F S_ .f32 := constant S_ .f32 0x7F800000#32
  let main_v15 : FVec F S4x256x64 .f32 := broadcastInDim S4x256x64 ![] bcast_S_S4x256x64 main_cst_4
  let main_v16 : IVec S4x256x64 1 := cmpf .olt main_v14 main_v15
  fn_part1 (F := F) main_arg4 main_arg5 main_v13 main_v16
-- ==== Kernel.lean ====
abbrev S65536x64 : Shape := ⟨2, ![65536, 64]⟩
abbrev S1x256 : Shape := ⟨2, ![1, 256]⟩
abbrev S256x64 : Shape := ⟨2, ![256, 64]⟩
abbrev S4x256x64 : Shape := ⟨3, ![4, 256, 64]⟩
abbrev S10x64 : Shape := ⟨2, ![10, 64]⟩
abbrev S10x256x64 : Shape := ⟨3, ![10, 256, 64]⟩
abbrev S64x256 : Shape := ⟨2, ![64, 256]⟩
abbrev S4x64x256 : Shape := ⟨3, ![4, 64, 256]⟩
abbrev S10x64x256 : Shape := ⟨3, ![10, 64, 256]⟩
abbrev S65536x256 : Shape := ⟨2, ![65536, 256]⟩
abbrev S2048x64 : Shape := ⟨2, ![2048, 64]⟩
abbrev S2048x256 : Shape := ⟨2, ![2048, 256]⟩
abbrev S1x64x256 : Shape := ⟨3, ![1, 64, 256]⟩
abbrev S1x64 : Shape := ⟨2, ![1, 64]⟩
abbrev S64 : Shape := ⟨1, ![64]⟩
abbrev S64x1 : Shape := ⟨2, ![64, 1]⟩

abbrev nBuf : Space → Nat
  | .hbm => 10
  | .vmem => 9
  | .smem => 0
  | _ => 0

abbrev bufTy : (tb : Table) → Fin (tcTables nBuf tb) → BufTy
  | .hbm, ⟨0, _⟩ => ⟨S65536x64, .f32⟩
  | .hbm, ⟨1, _⟩ => ⟨S1x256, .f32⟩
  | .hbm, ⟨2, _⟩ => ⟨S256x64, .f32⟩
  | .hbm, ⟨3, _⟩ => ⟨S4x256x64, .f32⟩
  | .hbm, ⟨4, _⟩ => ⟨S10x64, .f32⟩
  | .hbm, ⟨5, _⟩ => ⟨S10x256x64, .f32⟩
  | .hbm, ⟨6, _⟩ => ⟨S64x256, .f32⟩
  | .hbm, ⟨7, _⟩ => ⟨S4x64x256, .f32⟩
  | .hbm, ⟨8, _⟩ => ⟨S10x64x256, .f32⟩
  | .hbm, ⟨9, _⟩ => ⟨S65536x256, .f32⟩
  | .local _ .vmem, ⟨0, _⟩ => ⟨S2048x64, .f32⟩
  | .local _ .vmem, ⟨1, _⟩ => ⟨S2048x64, .f32⟩
  | .local _ .vmem, ⟨2, _⟩ => ⟨S1x256, .f32⟩
  | .local _ .vmem, ⟨3, _⟩ => ⟨S64x256, .f32⟩
  | .local _ .vmem, ⟨4, _⟩ => ⟨S4x64x256, .f32⟩
  | .local _ .vmem, ⟨5, _⟩ => ⟨S10x64, .f32⟩
  | .local _ .vmem, ⟨6, _⟩ => ⟨S10x64x256, .f32⟩
  | .local _ .vmem, ⟨7, _⟩ => ⟨S2048x256, .f32⟩
  | .local _ .vmem, ⟨8, _⟩ => ⟨S2048x256, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x64_S64x256_1_0 : S256x64.Transposes [1, 0] S64x256
  transposes_S4x256x64_S4x64x256_0_2_1 : S4x256x64.Transposes [0, 2, 1] S4x64x256
  transposes_S10x256x64_S10x64x256_0_2_1 : S10x256x64.Transposes [0, 2, 1] S10x64x256
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S4x64x256_S1x64x256_0_0_0 : ∀ a, (![0, 0, 0] : Fin 3 → Nat) a + S1x64x256.size a ≤ S4x64x256.size a
  h_S1x64x256 : 0 < S1x64x256.numel
  shapeCasts_S1x64x256_S64x256 : S1x64x256.ShapeCasts S64x256
  inb_S10x64x256_S1x64x256_0_0_0 : ∀ a, (![0, 0, 0] : Fin 3 → Nat) a + S1x64x256.size a ≤ S10x64x256.size a
  inb_S10x64_S1x64_0_0 : ∀ a, (![0, 0] : Fin 2 → Nat) a + S1x64.size a ≤ S10x64.size a
  h_S1x64 : 0 < S1x64.numel
  shapeCasts_S1x64_S64 : S1x64.ShapeCasts S64
  shapeCasts_S64_S64x1 : S64.ShapeCasts S64x1
  broadcasts_S64x1_S64x256 : S64x1.Broadcasts S64x256
  inb_S4x64x256_S1x64x256_1_0_0 : ∀ a, (![1, 0, 0] : Fin 3 → Nat) a + S1x64x256.size a ≤ S4x64x256.size a
  inb_S10x64x256_S1x64x256_1_0_0 : ∀ a, (![1, 0, 0] : Fin 3 → Nat) a + S1x64x256.size a ≤ S10x64x256.size a
  inb_S10x64_S1x64_1_0 : ∀ a, (![1, 0] : Fin 2 → Nat) a + S1x64.size a ≤ S10x64.size a
  inb_S10x64x256_S1x64x256_2_0_0 : ∀ a, (![2, 0, 0] : Fin 3 → Nat) a + S1x64x256.size a ≤ S10x64x256.size a
  inb_S10x64_S1x64_2_0 : ∀ a, (![2, 0] : Fin 2 → Nat) a + S1x64.size a ≤ S10x64.size a
  inb_S4x64x256_S1x64x256_2_0_0 : ∀ a, (![2, 0, 0] : Fin 3 → Nat) a + S1x64x256.size a ≤ S4x64x256.size a
  inb_S10x64x256_S1x64x256_3_0_0 : ∀ a, (![3, 0, 0] : Fin 3 → Nat) a + S1x64x256.size a ≤ S10x64x256.size a
  inb_S10x64_S1x64_3_0 : ∀ a, (![3, 0] : Fin 2 → Nat) a + S1x64.size a ≤ S10x64.size a
  inb_S10x64x256_S1x64x256_4_0_0 : ∀ a, (![4, 0, 0] : Fin 3 → Nat) a + S1x64x256.size a ≤ S10x64x256.size a
  inb_S10x64_S1x64_4_0 : ∀ a, (![4, 0] : Fin 2 → Nat) a + S1x64.size a ≤ S10x64.size a
  inb_S10x64x256_S1x64x256_5_0_0 : ∀ a, (![5, 0, 0] : Fin 3 → Nat) a + S1x64x256.size a ≤ S10x64x256.size a
  inb_S10x64_S1x64_5_0 : ∀ a, (![5, 0] : Fin 2 → Nat) a + S1x64.size a ≤ S10x64.size a
  inb_S4x64x256_S1x64x256_3_0_0 : ∀ a, (![3, 0, 0] : Fin 3 → Nat) a + S1x64x256.size a ≤ S4x64x256.size a
  inb_S10x64x256_S1x64x256_6_0_0 : ∀ a, (![6, 0, 0] : Fin 3 → Nat) a + S1x64x256.size a ≤ S10x64x256.size a
  inb_S10x64_S1x64_6_0 : ∀ a, (![6, 0] : Fin 2 → Nat) a + S1x64.size a ≤ S10x64.size a
  inb_S10x64x256_S1x64x256_7_0_0 : ∀ a, (![7, 0, 0] : Fin 3 → Nat) a + S1x64x256.size a ≤ S10x64x256.size a
  inb_S10x64_S1x64_7_0 : ∀ a, (![7, 0] : Fin 2 → Nat) a + S1x64.size a ≤ S10x64.size a
  inb_S10x64x256_S1x64x256_8_0_0 : ∀ a, (![8, 0, 0] : Fin 3 → Nat) a + S1x64x256.size a ≤ S10x64x256.size a
  inb_S10x64_S1x64_8_0 : ∀ a, (![8, 0] : Fin 2 → Nat) a + S1x64.size a ≤ S10x64.size a
  inb_S10x64x256_S1x64x256_9_0_0 : ∀ a, (![9, 0, 0] : Fin 3 → Nat) a + S1x64x256.size a ≤ S10x64x256.size a
  inb_S10x64_S1x64_9_0 : ∀ a, (![9, 0] : Fin 2 → Nat) a + S1x64.size a ≤ S10x64.size a
  inb_S2048x256_S2048x256_0_0 : ∀ a, (![0, 0] : Fin 2 → Nat) a + S2048x256.size a ≤ S2048x256.size a
  h_S2048x256 : 0 < S2048x256.numel
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x256.size a ≤ S4x64x256.size a
  hwx0_3 : ∀ i : grid0.Coords, EltTy.bits .f32 = 32 ∨ (Rect.block (s := S4x64x256) S4x64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x64.size a ≤ S10x64.size a
  hwx0_4 : ∀ i : grid0.Coords, EltTy.bits .f32 = 32 ∨ (Rect.block (s := S10x64) S10x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x64x256.size a ≤ S10x64x256.size a
  hwx0_5 : ∀ i : grid0.Coords, EltTy.bits .f32 = 32 ∨ (Rect.block (s := S10x64x256) S10x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10x64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x64 : Shape := ⟨2, ![65536, 64]⟩
abbrev S1x256 : Shape := ⟨2, ![1, 256]⟩
abbrev S256x64 : Shape := ⟨2, ![256, 64]⟩
abbrev S4x256x64 : Shape := ⟨3, ![4, 256, 64]⟩
abbrev S10x64 : Shape := ⟨2, ![10, 64]⟩
abbrev S10x256x64 : Shape := ⟨3, ![10, 256, 64]⟩
abbrev S64x256 : Shape := ⟨2, ![64, 256]⟩
abbrev S65536x256 : Shape := ⟨2, ![65536, 256]⟩
abbrev S1x256x64 : Shape := ⟨3, ![1, 256, 64]⟩
abbrev S1x64 : Shape := ⟨2, ![1, 64]⟩
abbrev S64 : Shape := ⟨1, ![64]⟩

abbrev nBuf : Space → Nat
  | .hbm => 130
  | .vmem => 0
  | .smem => 0
  | _ => 0

abbrev hbmTy0_0 (i : Nat) : BufTy := match i % 128 with
  | 0 => ⟨S65536x64, .f32⟩
  | 1 => ⟨S1x256, .f32⟩
  | 2 => ⟨S256x64, .f32⟩
  | 3 => ⟨S4x256x64, .f32⟩
  | 4 => ⟨S10x64, .f32⟩
  | 5 => ⟨S10x256x64, .f32⟩
  | 6 => ⟨S64x256, .f32⟩
  | 7 => ⟨S65536x256, .f32⟩
  | 8 => ⟨S65536x256, .f32⟩
  | 9 => ⟨S65536x256, .f32⟩
  | 10 => ⟨S1x256x64, .f32⟩
  | 11 => ⟨S256x64, .f32⟩
  | 12 => ⟨S64x256, .f32⟩
  | 13 => ⟨S65536x256, .f32⟩
  | 14 => ⟨S1x256x64, .f32⟩
  | 15 => ⟨S256x64, .f32⟩
  | 16 => ⟨S1x64, .f32⟩
  | 17 => ⟨S64, .f32⟩
  | 18 => ⟨S1x64, .f32⟩
  | 19 => ⟨S256x64, .f32⟩
  | 20 => ⟨S256x64, .f32⟩
  | 21 => ⟨S64x256, .f32⟩
  | 22 => ⟨S65536x256, .f32⟩
  | 23 => ⟨S65536x256, .f32⟩
  | 24 => ⟨S65536x256, .f32⟩
  | 25 => ⟨S1x256x64, .f32⟩
  | 26 => ⟨S256x64, .f32⟩
  | 27 => ⟨S64x256, .f32⟩
  | 28 => ⟨S65536x256, .f32⟩
  | 29 => ⟨S1x256x64, .f32⟩
  | 30 => ⟨S256x64, .f32⟩
  | 31 => ⟨S1x64, .f32⟩
  | 32 => ⟨S64, .f32⟩
  | 33 => ⟨S1x64, .f32⟩
  | 34 => ⟨S256x64, .f32⟩
  | 35 => ⟨S256x64, .f32⟩
  | 36 => ⟨S64x256, .f32⟩
  | 37 => ⟨S65536x256, .f32⟩
  | 38 => ⟨S65536x256, .f32⟩
  | 39 => ⟨S1x256x64, .f32⟩
  | 40 => ⟨S256x64, .f32⟩
  | 41 => ⟨S1x64, .f32⟩
  | 42 => ⟨S64, .f32⟩
  | 43 => ⟨S1x64, .f32⟩
  | 44 => ⟨S256x64, .f32⟩
  | 45 => ⟨S256x64, .f32⟩
  | 46 => ⟨S64x256, .f32⟩
  | 47 => ⟨S65536x256, .f32⟩
  | 48 => ⟨S65536x256, .f32⟩
  | 49 => ⟨S65536x256, .f32⟩
  | 50 => ⟨S1x256x64, .f32⟩
  | 51 => ⟨S256x64, .f32⟩
  | 52 => ⟨S64x256, .f32⟩
  | 53 => ⟨S65536x256, .f32⟩
  | 54 => ⟨S1x256x64, .f32⟩
  | 55 => ⟨S256x64, .f32⟩
  | 56 => ⟨S1x64, .f32⟩
  | 57 => ⟨S64, .f32⟩
  | 58 => ⟨S1x64, .f32⟩
  | 59 => ⟨S256x64, .f32⟩
  | 60 => ⟨S256x64, .f32⟩
  | 61 => ⟨S64x256, .f32⟩
  | 62 => ⟨S65536x256, .f32⟩
  | 63 => ⟨S65536x256, .f32⟩
  | 64 => ⟨S1x256x64, .f32⟩
  | 65 => ⟨S256x64, .f32⟩
  | 66 => ⟨S1x64, .f32⟩
  | 67 => ⟨S64, .f32⟩
  | 68 => ⟨S1x64, .f32⟩
  | 69 => ⟨S256x64, .f32⟩
  | 70 => ⟨S256x64, .f32⟩
  | 71 => ⟨S64x256, .f32⟩
  | 72 => ⟨S65536x256, .f32⟩
  | 73 => ⟨S65536x256, .f32⟩
  | 74 => ⟨S1x256x64, .f32⟩
  | 75 => ⟨S256x64, .f32⟩
  | 76 => ⟨S1x64, .f32⟩
  | 77 => ⟨S64, .f32⟩
  | 78 => ⟨S1x64, .f32⟩
  | 79 => ⟨S256x64, .f32⟩
  | 80 => ⟨S256x64, .f32⟩
  | 81 => ⟨S64x256, .f32⟩
  | 82 => ⟨S65536x256, .f32⟩
  | 83 => ⟨S65536x256, .f32⟩
  | 84 => ⟨S65536x256, .f32⟩
  | 85 => ⟨S1x256x64, .f32⟩
  | 86 => ⟨S256x64, .f32⟩
  | 87 => ⟨S64x256, .f32⟩
  | 88 => ⟨S65536x256, .f32⟩
  | 89 => ⟨S1x256x64, .f32⟩
  | 90 => ⟨S256x64, .f32⟩
  | 91 => ⟨S1x64, .f32⟩
  | 92 => ⟨S64, .f32⟩
  | 93 => ⟨S1x64, .f32⟩
  | 94 => ⟨S256x64, .f32⟩
  | 95 => ⟨S256x64, .f32⟩
  | 96 => ⟨S64x256, .f32⟩
  | 97 => ⟨S65536x256, .f32⟩
  | 98 => ⟨S65536x256, .f32⟩
  | 99 => ⟨S1x256x64, .f32⟩
  | 100 => ⟨S256x64, .f32⟩
  | 101 => ⟨S1x64, .f32⟩
  | 102 => ⟨S64, .f32⟩
  | 103 => ⟨S1x64, .f32⟩
  | 104 => ⟨S256x64, .f32⟩
  | 105 => ⟨S256x64, .f32⟩
  | 106 => ⟨S64x256, .f32⟩
  | 107 => ⟨S65536x256, .f32⟩
  | 108 => ⟨S65536x256, .f32⟩
  | 109 => ⟨S1x256x64, .f32⟩
  | 110 => ⟨S256x64, .f32⟩
  | 111 => ⟨S1x64, .f32⟩
  | 112 => ⟨S64, .f32⟩
  | 113 => ⟨S1x64, .f32⟩
  | 114 => ⟨S256x64, .f32⟩
  | 115 => ⟨S256x64, .f32⟩
  | 116 => ⟨S64x256, .f32⟩
  | 117 => ⟨S65536x256, .f32⟩
  | 118 => ⟨S65536x256, .f32⟩
  | 119 => ⟨S1x256x64, .f32⟩
  | 120 => ⟨S256x64, .f32⟩
  | 121 => ⟨S1x64, .f32⟩
  | 122 => ⟨S64, .f32⟩
  | 123 => ⟨S1x64, .f32⟩
  | 124 => ⟨S256x64, .f32⟩
  | 125 => ⟨S256x64, .f32⟩
  | 126 => ⟨S64x256, .f32⟩
  | 127 => ⟨S65536x256, .f32⟩
  | _ => ⟨S65536x64, .f32⟩

abbrev hbmTy0_1 (i : Nat) : BufTy := match i % 128 with
  | 0 => ⟨S65536x256, .f32⟩
  | 1 => ⟨S65536x256, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩

abbrev nD : Nat := 1
abbrev τ : Topo := Topo.v7x

variable {F : FTy → Type} [FloatOps F]

class Facts₀ : Prop where
  transposes_S256x64_S64x256_1_0 : S256x64.Transposes [1, 0] S64x256
  bcast_S1x256_S65536x256_0_1 : S1x256.BroadcastsInDim S65536x256 (![0, 1] : Fin 2 → Fin S65536x256.rank)
  slices_S4x256x64_S1x256x64_0_0_0 : S4x256x64.Slices ![0, 0, 0] S1x256x64
  shapeCasts_S1x256x64_S256x64 : S1x256x64.ShapeCasts S256x64
  slices_S10x256x64_S1x256x64_0_0_0 : S10x256x64.Slices ![0, 0, 0] S1x256x64
  slices_S10x64_S1x64_0_0 : S10x64.Slices ![0, 0] S1x64
  shapeCasts_S1x64_S64 : S1x64.ShapeCasts S64
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  slices_S4x256x64_S1x256x64_1_0_0 : S4x256x64.Slices ![1, 0, 0] S1x256x64
  slices_S10x256x64_S1x256x64_1_0_0 : S10x256x64.Slices ![1, 0, 0] S1x256x64
  slices_S10x64_S1x64_1_0 : S10x64.Slices ![1, 0] S1x64
  slices_S10x256x64_S1x256x64_2_0_0 : S10x256x64.Slices ![2, 0, 0] S1x256x64
  slices_S10x64_S1x64_2_0 : S10x64.Slices ![2, 0] S1x64
  slices_S4x256x64_S1x256x64_2_0_0 : S4x256x64.Slices ![2, 0, 0] S1x256x64
  slices_S10x256x64_S1x256x64_3_0_0 : S10x256x64.Slices ![3, 0, 0] S1x256x64
  slices_S10x64_S1x64_3_0 : S10x64.Slices ![3, 0] S1x64
  slices_S10x256x64_S1x256x64_4_0_0 : S10x256x64.Slices ![4, 0, 0] S1x256x64
  slices_S10x64_S1x64_4_0 : S10x64.Slices ![4, 0] S1x64
  slices_S10x256x64_S1x256x64_5_0_0 : S10x256x64.Slices ![5, 0, 0] S1x256x64
  slices_S10x64_S1x64_5_0 : S10x64.Slices ![5, 0] S1x64
  slices_S4x256x64_S1x256x64_3_0_0 : S4x256x64.Slices ![3, 0, 0] S1x256x64
  slices_S10x256x64_S1x256x64_6_0_0 : S10x256x64.Slices ![6, 0, 0] S1x256x64
  slices_S10x64_S1x64_6_0 : S10x64.Slices ![6, 0] S1x64
  slices_S10x256x64_S1x256x64_7_0_0 : S10x256x64.Slices ![7, 0, 0] S1x256x64
  slices_S10x64_S1x64_7_0 : S10x64.Slices ![7, 0] S1x64
  slices_S10x256x64_S1x256x64_8_0_0 : S10x256x64.Slices ![8, 0, 0] S1x256x64
  slices_S10x64_S1x64_8_0 : S10x64.Slices ![8, 0] S1x64
  slices_S10x256x64_S1x256x64_9_0_0 : S10x256x64.Slices ![9, 0, 0] S1x256x64
  slices_S10x64_S1x64_9_0 : S10x64.Slices ![9, 0] S1x64
  dot_S65536x64_S64x256_S65536x256_1_0_0_1_n_n_wf : DotDims.WF S65536x64 S64x256 S65536x256 [1] [0] [0] [1] [] []

variable [Facts₀]

def dot_S65536x64_S64x256_S65536x256_1_0_0_1_n_n : DotDims S65536x64 S64x256 S65536x256 where
  lhsContracting := [1]
  rhsContracting := [0]
  lhsNonContracting := [0]
  rhsNonContracting := [1]
  lhsBatch := []
  rhsBatch := []
  wf := dot_S65536x64_S64x256_S65536x256_1_0_0_1_n_n_wf

class Facts : Prop extends Facts₀ where

variable [Facts]
-- ==== Proof.Spec.lean ====
/-
  The function both programs compute, one output entry at a time.

  For a batch row `b` and an output feature `o` the result is a degree-four polynomial in the row `x[b, ·]`:

    res[b, o] = d0[o] + ⟨x_b, d1t[o]⟩ + Σ_{i<4} ⟨x_b, d1[i, o]⟩ · Π_{j ≤ i} ⟨x_b, w2[p(i,j), o] ⊙ w1[p(i,j)]⟩

  where ⟨·,·⟩ is the inner product over the 64 input features, ⊙ the entrywise product of two weight rows, and
  p(i,j) = i(i+1)/2 + j numbers the ten (w1, w2) pairs term by term: 0 | 1 2 | 3 4 5 | 6 7 8 9. The sums and
  products are taken in exactly the order written below (left to right), so that no law of the extended reals is
  needed to meet either program: both build this very tree.

  `entry` is the tree over the ROWS the entry depends on; `G` reads those rows off the six argument arrays.
-/
import Idealize.ShloMosaic.PureOps.Ideal
import Idealize.ShloMosaic.Lib.ValueIdx

noncomputable section

open scoped BigOperators

namespace Cert.PolySpec

open Idealize.ShloMosaic Idealize.ShloMosaic.ValueIdx

/-- The inner product of two rows over the 64 input features. -/
def dot64 (a b : Fin 64 → EReal) : EReal := ∑ k : Fin 64, a k * b k

/-- The `p`-th factor: the row `xr` against the entrywise product of the `p`-th pair of weight rows. -/
def fac (xr : Fin 64 → EReal) (w1 w2 : Fin 10 → Fin 64 → EReal) (p : Fin 10) : EReal :=
  dot64 xr (fun k => w2 p k * w1 p k)

/-- One output entry from the rows it depends on: the bias `c`, the input row `xr`, the linear term's weight row `t`,
    the four leading weight rows `d`, and the ten pairs `w1`, `w2`. -/
def entry (c : EReal) (xr t : Fin 64 → EReal) (d : Fin 4 → Fin 64 → EReal) (w1 w2 : Fin 10 → Fin 64 → EReal) : EReal :=
  ((((c + dot64 xr t)
    + dot64 xr (d 0) * fac xr w1 w2 0)
    + dot64 xr (d 1) * fac xr w1 w2 1 * fac xr w1 w2 2)
    + dot64 xr (d 2) * fac xr w1 w2 3 * fac xr w1 w2 4 * fac xr w1 w2 5)
    + dot64 xr (d 3) * fac xr w1 w2 6 * fac xr w1 w2 7 * fac xr w1 w2 8 * fac xr w1 w2 9

/-- `entry` depends only on the rows it is given. -/
theorem entry_congr {c c' : EReal} {xr xr' t t' : Fin 64 → EReal} {d d' : Fin 4 → Fin 64 → EReal}
    {w1 w1' w2 w2' : Fin 10 → Fin 64 → EReal} (hc : c = c') (hx : xr = xr') (ht : t = t') (hd : d = d')
    (h1 : w1 = w1') (h2 : w2 = w2') : entry c xr t d w1 w2 = entry c' xr' t' d' w1' w2' := by
  subst hc hx ht hd h1 h2; rfl

/-- The entry at batch row `b`, output feature `o`, read off the argument arrays: `x : [65536, 64]`, `d0 : [1, 256]`,
    `d1t : [256, 64]`, `d1 : [4, 256, 64]`, `w1 : [10, 64]`, `w2 : [10, 256, 64]`. -/
def at_ (x : (⟨2, ![65536, 64]⟩ : Shape).Idx → EReal) (d0 : (⟨2, ![1, 256]⟩ : Shape).Idx → EReal)
    (d1t : (⟨2, ![256, 64]⟩ : Shape).Idx → EReal) (d1 : (⟨3, ![4, 256, 64]⟩ : Shape).Idx → EReal)
    (w1 : (⟨2, ![10, 64]⟩ : Shape).Idx → EReal) (w2 : (⟨3, ![10, 256, 64]⟩ : Shape).Idx → EReal)
    (b : Fin 65536) (o : Fin 256) : EReal :=
  entry (d0 (ix2 (0 : Fin 1) o)) (fun k => x (ix2 b k)) (fun k => d1t (ix2 o k)) (fun q k => d1 (ix3 q o k))
    (fun p k => w1 (ix2 p k)) (fun p k => w2 (ix3 p o k))

/-- The whole result array `[65536, 256]` as one function of the argument arrays. -/
def G (x : (⟨2, ![65536, 64]⟩ : Shape).Idx → EReal) (d0 : (⟨2, ![1, 256]⟩ : Shape).Idx → EReal)
    (d1t : (⟨2, ![256, 64]⟩ : Shape).Idx → EReal) (d1 : (⟨3, ![4, 256, 64]⟩ : Shape).Idx → EReal)
    (w1 : (⟨2, ![10, 64]⟩ : Shape).Idx → EReal) (w2 : (⟨3, ![10, 256, 64]⟩ : Shape).Idx → EReal) :
    (⟨2, ![65536, 256]⟩ : Shape).Idx → EReal :=
  fun i => at_ x d0 d1t d1 w1 w2 (i 0) (i 1)

theorem G_ix2 (x : (⟨2, ![65536, 64]⟩ : Shape).Idx → EReal) (d0 : (⟨2, ![1, 256]⟩ : Shape).Idx → EReal)
    (d1t : (⟨2, ![256, 64]⟩ : Shape).Idx → EReal) (d1 : (⟨3, ![4, 256, 64]⟩ : Shape).Idx → EReal)
    (w1 : (⟨2, ![10, 64]⟩ : Shape).Idx → EReal) (w2 : (⟨3, ![10, 256, 64]⟩ : Shape).Idx → EReal)
    (b : Fin 65536) (o : Fin 256) : G x d0 d1t d1 w1 w2 (ix2 b o) = at_ x d0 d1t d1 w1 w2 b o := rfl

end Cert.PolySpec

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.KernelPayload.lean ====
/-
  The idealized kernel's arithmetic, one entry of a block at a time.

  A block of the kernel is 2048 batch rows. Its body forms fifteen products of the row block `[2048, 64]` with a
  `[64, 256]` matrix: one with the transposed linear weights, four with slabs of the transposed leading weights, and ten
  with a slab of the transposed pair weights whose row `k` has first been scaled by entry `k` of a row of `w1`
  (the row turned into a column and spread over the 256 output features). Read at entry `(r, o)` of the block, a
  product into the zero accumulator is the inner product over the 64 input features of row `r` of the left factor
  with column `o` of the right one; the changes of float format are the identity on the extended reals.
-/
import proofs.«110697_j34033320854231_1_alg».proof.Proof.Gen.KernelIdeal.Skeleton
import proofs.«110697_j34033320854231_1_alg».proof.Proof.Spec
import proofs.«110697_j34033320854231_1_alg».proof.Proof.LibKeepdimsCol
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.PolySpec

/-! ## The matrix product at an entry -/

/-- The left operand is read in the output's row. -/
theorem lhs_row (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide),
    dif_pos (show (0 : Fin S2048x64.rank) ∈ dot_S2048x64_S64x256_S2048x256_1_0_0_1_n_n.lhsNonContracting by decide)]
  rfl

/-- The right operand is read in the output's column. -/
theorem rhs_col (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide),
    dif_pos (show (1 : Fin S64x256.rank) ∈ dot_S2048x64_S64x256_S2048x256_1_0_0_1_n_n.rhsNonContracting by decide)]
  rfl

/-- A product of a `[2048, 64]` block with a `[64, 256]` matrix into the zero accumulator, at entry `(r, o)`: the inner
    product of row `r` with column `o`. -/
theorem mm_apply (A : FVec Ideal S2048x64 .bf16) (B : FVec Ideal S64x256 .bf16) (r : Fin 2048) (o : Fin 256) :
    matmul dot_S2048x64_S64x256_S2048x256_1_0_0_1_n_n none A B (constant (F := Ideal) S2048x256 .f32 0x00000000#32) (ix2 r o)
      = dot64 (fun k => A (ix2 r k)) (fun k => B (ix2 k o)) := by
  simp only [matmul]
  rw [Ideal.matmul_constant_zero_apply,
    ← Equiv.sum_comp (contrEquiv1 dot_S2048x64_S64x256_S2048x256_1_0_0_1_n_n 64 rfl rfl).symm]
  unfold dot64
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 r o)
      ((contrEquiv1 dot_S2048x64_S64x256_S2048x256_1_0_0_1_n_n 64 rfl rfl).symm k) = ix2 r k :=
    funext fun a => Fin.ext (by
      match a with
      | ⟨0, _⟩ => exact lhs_row _ _
      | ⟨1, _⟩ => exact (dot_S2048x64_S64x256_S2048x256_1_0_0_1_n_n.lhsIdx_val_of_single rfl _ _).trans hk)
  have er : dot_S2048x64_S64x256_S2048x256_1_0_0_1_n_n.rhsIdx (ix2 r o)
      ((contrEquiv1 dot_S2048x64_S64x256_S2048x256_1_0_0_1_n_n 64 rfl rfl).symm k) = ix2 k o :=
    funext fun a => Fin.ext (by
      match a with
      | ⟨0, _⟩ => exact (dot_S2048x64_S64x256_S2048x256_1_0_0_1_n_n.rhsIdx_val_of_single rfl _ _).trans hk
      | ⟨1, _⟩ => exact rhs_col _ _)
  rw [el, er]

/-! ## The right factors at an entry -/

/-- A loaded `[1, 64, 256]` slab viewed as a matrix and rounded for the matrix unit: entry `(k, o)` is the slab's. -/
theorem slab_apply (v : Vec Ideal S1x64x256 .f32) (k : Fin 64) (o : Fin 256) :
    (truncf .bf16 (shapeCast S64x256 v shapeCasts_S1x64x256_S64x256) bitsLt_bf16_f32 : FVec Ideal S64x256 .bf16) (ix2 k o)
      = v (ix3 (0 : Fin 1) k o) := by
  rw [truncf_apply]
  exact shapeCast_1ab_ab_apply v shapeCasts_S1x64x256_S64x256 k o

/-- A loaded `[1, 64]` row of `w1` turned into a column and spread over the output features: entry `(k, o)` is the row's
    entry `k`. -/
theorem col_apply (w : Vec Ideal S1x64 .f32) (k : Fin 64) (o : Fin 256) :
    (broadcastTo S64x256 (shapeCast S64x1 (shapeCast S64 w shapeCasts_S1x64_S64) shapeCasts_S64_S64x1)
      broadcasts_S64x1_S64x256 : FVec Ideal S64x256 .f32) (ix2 k o) = w (ix2 (0 : Fin 1) k) := by
  rw [Cert.LibKeepdimsCol.broadcastTo_a1_ab_apply, Cert.LibKeepdimsCol.shapeCast_a_a1_apply]
  exact shapeCast_1a_a_apply w shapeCasts_S1x64_S64 k

/-- A slab of the pair weights scaled row by row by a row of `w1`: entry `(k, o)` is the product of the two entries. -/
theorem scaled_apply (v : Vec Ideal S1x64x256 .f32) (w : Vec Ideal S1x64 .f32) (k : Fin 64) (o : Fin 256) :
    (truncf .bf16 (mulf (shapeCast S64x256 v shapeCasts_S1x64x256_S64x256)
      (broadcastTo S64x256 (shapeCast S64x1 (shapeCast S64 w shapeCasts_S1x64_S64) shapeCasts_S64_S64x1)
        broadcasts_S64x1_S64x256)) bitsLt_bf16_f32 : FVec Ideal S64x256 .bf16) (ix2 k o)
      = v (ix3 (0 : Fin 1) k o) * w (ix2 (0 : Fin 1) k) := by
  rw [truncf_apply, mulf_apply, col_apply]
  exact congrArg (· * w (ix2 (0 : Fin 1) k)) (shapeCast_1ab_ab_apply v shapeCasts_S1x64x256_S64x256 k o)

end Cert.KernelIdeal.Payload

end
-- ==== Proof.LibSlabLoad.lean ====
/-
  A block loaded through a unit-stride rectangle that takes ONE slab along the leading axis (all of the other axes),
  read at an index given by coordinates: the loaded value at `(0, i, j)` (or `(0, j)`) is the source at `(p, i, j)`
  (or `(p, j)`), `p` the slab's offset. For any element type and any extents.
-/
import Idealize.ShloMosaic.Lib.Pipeline.FrameBody
import Idealize.ShloMosaic.Lib.ValueIdx

namespace Cert.LibSlabLoad

open Idealize.ShloMosaic Idealize.ShloMosaic.ValueIdx

variable {Val : EltTy → Type} {e : EltTy}

/-- Slab `p` of a rank-3 array `[n, a, b]`, loaded as a `[1, a, b]` block: the block at `(0, i, j)` is the array at `(p, i, j)`. -/
theorem ld_slab3 {n a b : ℕ} (X : (⟨3, ![n, a, b]⟩ : Shape).Idx → Val e) (p : ℕ)
    (inb : ∀ ax, (![p, 0, 0] : Fin 3 → ℕ) ax + (⟨3, ![1, a, b]⟩ : Shape).size ax ≤ (⟨3, ![n, a, b]⟩ : Shape).size ax)
    (i : Fin a) (j : Fin b) :
    View.ld X (Rect.unit ![p, 0, 0] (⟨3, ![1, a, b]⟩ : Shape).size inb) (ix3 (0 : Fin 1) i j)
      = X (ix3 (⟨p, inb 0⟩ : Fin n) i j) := by
  show X _ = X _
  refine congrArg X (funext fun ax => Fin.ext ?_)
  match ax with
  | ⟨0, _⟩ => show p + 1 * 0 = p; omega
  | ⟨1, _⟩ => show 0 + 1 * i.val = i.val; omega
  | ⟨2, _⟩ => show 0 + 1 * j.val = j.val; omega

/-- Row `p` of a matrix `[n, b]`, loaded as a `[1, b]` block: the block at `(0, j)` is the matrix at `(p, j)`. -/
theorem ld_row2 {n b : ℕ} (X : (⟨2, ![n, b]⟩ : Shape).Idx → Val e) (p : ℕ)
    (inb : ∀ ax, (![p, 0] : Fin 2 → ℕ) ax + (⟨2, ![1, b]⟩ : Shape).size ax ≤ (⟨2, ![n, b]⟩ : Shape).size ax)
    (j : Fin b) :
    View.ld X (Rect.unit ![p, 0] (⟨2, ![1, b]⟩ : Shape).size inb) (ix2 (0 : Fin 1) j)
      = X (ix2 (⟨p, inb 0⟩ : Fin n) j) := by
  show X _ = X _
  refine congrArg X (funext fun ax => Fin.ext ?_)
  match ax with
  | ⟨0, _⟩ => show p + 1 * 0 = p; omega
  | ⟨1, _⟩ => show 0 + 1 * j.val = j.val; omega

end Cert.LibSlabLoad
-- ==== Proof.KernelBlock.lean ====
/-
  What the idealized kernel's body leaves in its output block, one entry at a time, as the specification's tree over
  the input blocks.

  The body reads the row block `[2048, 64]`, the bias row, the transposed linear weights `[64, 256]`, the four slabs of
  the transposed leading weights `[4, 64, 256]`, the ten rows of `w1 : [10, 64]` and the ten slabs of the transposed pair
  weights `[10, 64, 256]`, and stores one `[2048, 256]` value over the whole output block. Entry `(r, o)` of that value is
  `entry` of: the bias at `o`, row `r` of the row block, column `o` of each weight matrix or slab, and the rows of `w1`.
-/
import proofs.«110697_j34033320854231_1_alg».proof.Proof.Gen.KernelIdeal.Frame
import proofs.«110697_j34033320854231_1_alg».proof.Proof.KernelPayload
import proofs.«110697_j34033320854231_1_alg».proof.Proof.LibSlabLoad

noncomputable section

open scoped BigOperators

namespace Cert.KernelIdeal.Payload

open Cert.KernelIdeal Cert.KernelIdeal.Gen Idealize.ShloMosaic Idealize.ShloMosaic.ValueIdx Cert.PolySpec

/-- The stored value at entry `(r, o)`, over the twenty-seven loaded vectors: the row block `v0`, the linear weights
    `v2`, the bias `v5`, the four leading slabs `d`, the ten rows `w1` and the ten pair slabs `w2`, in the order the
    body loads them. -/
theorem pay_apply (v0 : Vec Ideal S2048x64 .f32) (v2 : Vec Ideal S64x256 .f32) (v5 : Vec Ideal S1x256 .f32)
    (v9 v13 : Vec Ideal S1x64x256 .f32) (v15 : Vec Ideal S1x64 .f32)
    (v24 v28 : Vec Ideal S1x64x256 .f32) (v30 : Vec Ideal S1x64 .f32)
    (v38 : Vec Ideal S1x64x256 .f32) (v40 : Vec Ideal S1x64 .f32)
    (v49 v53 : Vec Ideal S1x64x256 .f32) (v55 : Vec Ideal S1x64 .f32)
    (v63 : Vec Ideal S1x64x256 .f32) (v65 : Vec Ideal S1x64 .f32)
    (v73 : Vec Ideal S1x64x256 .f32) (v75 : Vec Ideal S1x64 .f32)
    (v84 v88 : Vec Ideal S1x64x256 .f32) (v90 : Vec Ideal S1x64 .f32)
    (v98 : Vec Ideal S1x64x256 .f32) (v100 : Vec Ideal S1x64 .f32)
    (v108 : Vec Ideal S1x64x256 .f32) (v110 : Vec Ideal S1x64 .f32)
    (v118 : Vec Ideal S1x64x256 .f32) (v120 : Vec Ideal S1x64 .f32) (r : Fin 2048) (o : Fin 256) :
    k0_pay1 (F := Ideal) (k0_pay2 v0)
        (k0_pay10 (k0_pay2 v0)
          (k0_pay7 (k0_pay2 v0) (k0_pay3 v0 v2 v5 v9 v13 v15) (k0_pay4 v0 v24) (k0_pay5 v28) (k0_pay6 v30) v38 v40)
          (k0_pay8 (k0_pay2 v0) v49 v53 v55) (k0_pay9 v63 v65) v73 v75)
        (k0_pay11 (k0_pay2 v0) v84 v88 v90 v98 v100) v108 v110 v118 v120 (ix2 r o)
      = entry (v5 (ix2 (0 : Fin 1) o)) (fun k => v0 (ix2 r k)) (fun k => v2 (ix2 k o))
          (fun q k => ![v9, v24, v49, v84] q (ix3 (0 : Fin 1) k o))
          (fun p k => ![v15, v30, v40, v55, v65, v75, v90, v100, v110, v120] p (ix2 (0 : Fin 1) k))
          (fun p k => ![v13, v28, v38, v53, v63, v73, v88, v98, v108, v118] p (ix3 (0 : Fin 1) k o)) := by
  unfold k0_pay1 k0_pay10 k0_pay7 k0_pay3 k0_pay4 k0_pay5 k0_pay6 k0_pay8 k0_pay9 k0_pay11 k0_pay2
  simp only [addf_apply, mulf_apply, mm_apply, truncf_apply, shapeCast_self, shapeCast_1ab_ab_apply,
    shapeCast_1a_a_apply, broadcastTo_1b_ab_apply, Cert.LibKeepdimsCol.broadcastTo_a1_ab_apply,
    Cert.LibKeepdimsCol.shapeCast_a_a1_apply]
  rfl

theorem zeros2 : (![0, 0] : Fin 2 → ℕ) = fun _ => 0 := funext fun a => by
  match a with
  | ⟨0, _⟩ => rfl
  | ⟨1, _⟩ => rfl

/-- The output block after the body, at entry `(r, o)`, from the six input blocks. -/
theorem out_apply (x0 : Vec Ideal S2048x64 .f32) (x1 : Vec Ideal S1x256 .f32) (x2 : Vec Ideal S64x256 .f32)
    (x3 : Vec Ideal S4x64x256 .f32) (x4 : Vec Ideal S10x64 .f32) (x5 : Vec Ideal S10x64x256 .f32)
    (r : Fin 2048) (o : Fin 256) :
    out0_6 (F := Ideal) x0 x1 x2 x3 x4 x5 (ix2 r o)
      = entry (x1 (ix2 (0 : Fin 1) o)) (fun k => x0 (ix2 r k)) (fun k => x2 (ix2 k o))
          (fun q k => x3 (ix3 q k o)) (fun p k => x4 (ix2 p k)) (fun p k => x5 (ix3 p k o)) := by
  unfold out0_6
  rw [View.canon_unit_zero zeros2]
  rw [pay_apply]
  rw [View.ld_unit_zero (S := S2048x64) zeros2, View.ld_unit_zero (S := S64x256) zeros2,
    View.ld_unit_zero (S := S1x256) zeros2]
  have hd : (fun (q : Fin 4) (k : Fin 64) =>
      ![View.ld x3 r0_3, View.ld x3 r0_6, View.ld x3 r0_11, View.ld x3 r0_18] q (ix3 (0 : Fin 1) k o))
      = fun q k => x3 (ix3 q k o) := by
    funext q k
    match q with
    | ⟨0, _⟩ => exact Cert.LibSlabLoad.ld_slab3 x3 0 _ k o
    | ⟨1, _⟩ => exact Cert.LibSlabLoad.ld_slab3 x3 1 _ k o
    | ⟨2, _⟩ => exact Cert.LibSlabLoad.ld_slab3 x3 2 _ k o
    | ⟨3, _⟩ => exact Cert.LibSlabLoad.ld_slab3 x3 3 _ k o
  have hw1 : (fun (p : Fin 10) (k : Fin 64) =>
      ![View.ld x4 r0_5, View.ld x4 r0_8, View.ld x4 r0_10, View.ld x4 r0_13, View.ld x4 r0_15, View.ld x4 r0_17,
        View.ld x4 r0_20, View.ld x4 r0_22, View.ld x4 r0_24, View.ld x4 r0_26] p (ix2 (0 : Fin 1) k))
      = fun p k => x4 (ix2 p k) := by
    funext p k
    match p with
    | ⟨0, _⟩ => exact Cert.LibSlabLoad.ld_row2 x4 0 _ k
    | ⟨1, _⟩ => exact Cert.LibSlabLoad.ld_row2 x4 1 _ k
    | ⟨2, _⟩ => exact Cert.LibSlabLoad.ld_row2 x4 2 _ k
    | ⟨3, _⟩ => exact Cert.LibSlabLoad.ld_row2 x4 3 _ k
    | ⟨4, _⟩ => exact Cert.LibSlabLoad.ld_row2 x4 4 _ k
    | ⟨5, _⟩ => exact Cert.LibSlabLoad.ld_row2 x4 5 _ k
    | ⟨6, _⟩ => exact Cert.LibSlabLoad.ld_row2 x4 6 _ k
    | ⟨7, _⟩ => exact Cert.LibSlabLoad.ld_row2 x4 7 _ k
    | ⟨8, _⟩ => exact Cert.LibSlabLoad.ld_row2 x4 8 _ k
    | ⟨9, _⟩ => exact Cert.LibSlabLoad.ld_row2 x4 9 _ k
  have hw2 : (fun (p : Fin 10) (k : Fin 64) =>
      ![View.ld x5 r0_4, View.ld x5 r0_7, View.ld x5 r0_9, View.ld x5 r0_12, View.ld x5 r0_14, View.ld x5 r0_16,
        View.ld x5 r0_19, View.ld x5 r0_21, View.ld x5 r0_23, View.ld x5 r0_25] p (ix3 (0 : Fin 1) k o))
      = fun p k => x5 (ix3 p k o) := by
    funext p k
    match p with
    | ⟨0, _⟩ => exact Cert.LibSlabLoad.ld_slab3 x5 0 _ k o
    | ⟨1, _⟩ => exact Cert.LibSlabLoad.ld_slab3 x5 1 _ k o
    | ⟨2, _⟩ => exact Cert.LibSlabLoad.ld_slab3 x5 2 _ k o
    | ⟨3, _⟩ => exact Cert.LibSlabLoad.ld_slab3 x5 3 _ k o
    | ⟨4, _⟩ => exact Cert.LibSlabLoad.ld_slab3 x5 4 _ k o
    | ⟨5, _⟩ => exact Cert.LibSlabLoad.ld_slab3 x5 5 _ k o
    | ⟨6, _⟩ => exact Cert.LibSlabLoad.ld_slab3 x5 6 _ k o
    | ⟨7, _⟩ => exact Cert.LibSlabLoad.ld_slab3 x5 7 _ k o
    | ⟨8, _⟩ => exact Cert.LibSlabLoad.ld_slab3 x5 8 _ k o
    | ⟨9, _⟩ => exact Cert.LibSlabLoad.ld_slab3 x5 9 _ k o
  rw [hd, hw1, hw2]

end Cert.KernelIdeal.Payload

end
-- ==== Proof.KernelValue.lean ====
/-
  From blocks to the whole array: after the idealized kernel's run the result array is the specification `G` of the
  argument arrays.

  Grid point `t` of 32 works on batch rows `[2048 t, 2048 t + 2048)`: its input block of `x` and its output block are
  those rows; the five weight operands are staged whole (block index zero on every axis). Three of them reach the
  region transposed by host operations: the linear weights `[256, 64] → [64, 256]`, the leading weights and the pair
  weights slab by slab `[·, 256, 64] → [·, 64, 256]`. Reading the transposes back, column `o` of a staged matrix is row
  `o` of the argument, which is what the specification reads. The 32 output blocks tile the result, so the array ends
  holding `G` everywhere.
-/
import proofs.«110697_j34033320854231_1_alg».proof.Proof.Gen.KernelIdeal.Value
import proofs.«110697_j34033320854231_1_alg».proof.Proof.KernelBlock
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.PolySpec Cert.KernelIdeal.Payload
open Idealize.ShloMosaic.Pipeline (Dat)

variable (m : (ℓ : Loc nD τ sig) → Buf (Elt Ideal) ℓ) (ρ : Dev nD → PrngReg)

/-- The specification at core `c`'s argument arrays as launched. -/
abbrev Gm (c : Dev nD) : S65536x256.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The transposed weights as the region finds them -/

theorem V_lin (c : Dev nD) : (V m c main_v0 : S64x256.Idx → EReal)
    = transpose S64x256 [1, 0] (m ((c : Thread nD τ).loc main_arg2)) transposes_S256x64_S64x256_1_0 := by
  dsimp only [Gen.V, Gen.hostOps0]; after_results

theorem V_lead (c : Dev nD) : (V m c main_v1 : S4x64x256.Idx → EReal)
    = transpose S4x64x256 [0, 2, 1] (m ((c : Thread nD τ).loc main_arg3)) transposes_S4x256x64_S4x64x256_0_2_1 := by
  dsimp only [Gen.V, Gen.hostOps0]; after_results

theorem V_pair (c : Dev nD) : (V m c main_v2 : S10x64x256.Idx → EReal)
    = transpose S10x64x256 [0, 2, 1] (m ((c : Thread nD τ).loc main_arg5)) transposes_S10x256x64_S10x64x256_0_2_1 := by
  dsimp only [Gen.V, Gen.hostOps0]; after_results

/-! ## The block index maps over the grid -/

/-- Point `t` takes block `t` of the input rows and of the output rows; every weight operand is one whole block. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0 :=
  (by decide +kernel : ∀ t : Fin grid0.N, _)

/-- Every block of output rows is some point's. -/
theorem idx_onto : ∀ q : Fin 32, ∃ t : Fin cfg0.N, win0_6.index t = ![q.val, 0] :=
  (by decide +kernel : ∀ q : Fin 32, ∃ t : Fin grid0.N, win0_6.index t = ![q.val, 0])

theorem lt32 (t : Fin cfg0.N) : t.val < 32 := lt_of_lt_of_eq t.isLt N_0

/-- Batch row `2048 t + r`: row `r` of point `t`'s block. -/
def row (t : Fin cfg0.N) (r : Fin 2048) : Fin 65536 :=
  ⟨t.val * 2048 + r.val, by have := lt32 t; have := r.isLt; omega⟩

/-! ## The input blocks, entry by entry -/

theorem blk_x (c : Dev nD) (t : Fin cfg0.N) (r : Fin 2048) (k : Fin 64) :
    iblk m c 0 t (ix2 r k) = m ((c : Thread nD τ).loc main_arg0) (ix2 (row t r) k) := by
  show V m c main_arg0 (((cfg0.win 0).blk t).view.emb (ix2 r k)) = _
  rw [V_main_arg0]
  refine congrArg _ (funext fun a => Fin.ext ?_)
  obtain ⟨e0, e1, -⟩ := idx_facts t
  match a with
  | ⟨0, _⟩ => show win0_0.index t (0 : Fin 2) * 2048 + 1 * r.val = t.val * 2048 + r.val; omega
  | ⟨1, _⟩ => show win0_0.index t (1 : Fin 2) * 64 + 1 * k.val = k.val; omega

theorem blk_bias (c : Dev nD) (t : Fin cfg0.N) (o : Fin 256) :
    iblk m c 1 t (ix2 (0 : Fin 1) o) = m ((c : Thread nD τ).loc main_arg1) (ix2 (0 : Fin 1) o) := by
  show V m c main_arg1 (((cfg0.win 1).blk t).view.emb (ix2 (0 : Fin 1) o)) = _
  rw [V_main_arg1]
  refine congrArg _ (funext fun a => Fin.ext ?_)
  obtain ⟨-, -, -, -, e0, e1, -⟩ := idx_facts t
  match a with
  | ⟨0, _⟩ => show win0_1.index t (0 : Fin 2) * 1 + 1 * 0 = 0; omega
  | ⟨1, _⟩ => show win0_1.index t (1 : Fin 2) * 256 + 1 * o.val = o.val; omega

theorem blk_lin (c : Dev nD) (t : Fin cfg0.N) (k : Fin 64) (o : Fin 256) :
    iblk m c 2 t (ix2 k o) = m ((c : Thread nD τ).loc main_arg2) (ix2 o k) := by
  show V m c main_v0 (((cfg0.win 2).blk t).view.emb (ix2 k o)) = _
  have e : ((cfg0.win 2).blk t).view.emb (ix2 k o) = ix2 k o := by
    refine funext fun a => Fin.ext ?_
    obtain ⟨-, -, -, -, -, -, e0, e1, -⟩ := idx_facts t
    match a with
    | ⟨0, _⟩ => show win0_2.index t (0 : Fin 2) * 64 + 1 * k.val = k.val; omega
    | ⟨1, _⟩ => show win0_2.index t (1 : Fin 2) * 256 + 1 * o.val = o.val; omega
  refine (congrArg (V m c main_v0 : S64x256.Idx → EReal) e).trans ?_
  rw [V_lin]
  exact transpose_ix2_apply _ _ k o

theorem blk_lead (c : Dev nD) (t : Fin cfg0.N) (q : Fin 4) (k : Fin 64) (o : Fin 256) :
    iblk m c 3 t (ix3 q k o) = m ((c : Thread nD τ).loc main_arg3) (ix3 q o k) := by
  show V m c main_v1 (((cfg0.win 3).blk t).view.emb (ix3 q k o)) = _
  have e : ((cfg0.win 3).blk t).view.emb (ix3 q k o) = ix3 q k o := by
    refine funext fun a => Fin.ext ?_
    obtain ⟨-, -, -, -, -, -, -, -, e0, e1, e2, -⟩ := idx_facts t
    match a with
    | ⟨0, _⟩ => show win0_3.index t (0 : Fin 3) * 4 + 1 * q.val = q.val; omega
    | ⟨1, _⟩ => show win0_3.index t (1 : Fin 3) * 64 + 1 * k.val = k.val; omega
    | ⟨2, _⟩ => show win0_3.index t (2 : Fin 3) * 256 + 1 * o.val = o.val; omega
  refine (congrArg (V m c main_v1 : S4x64x256.Idx → EReal) e).trans ?_
  rw [V_lead]
  exact transpose_ix3_021_apply _ _ q k o

theorem blk_w1 (c : Dev nD) (t : Fin cfg0.N) (p : Fin 10) (k : Fin 64) :
    iblk m c 4 t (ix2 p k) = m ((c : Thread nD τ).loc main_arg4) (ix2 p k) := by
  show V m c main_arg4 (((cfg0.win 4).blk t).view.emb (ix2 p k)) = _
  rw [V_main_arg4]
  refine congrArg _ (funext fun a => Fin.ext ?_)
  obtain ⟨-, -, -, -, -, -, -, -, -, -, -, e0, e1, -⟩ := idx_facts t
  match a with
  | ⟨0, _⟩ => show win0_4.index t (0 : Fin 2) * 10 + 1 * p.val = p.val; omega
  | ⟨1, _⟩ => show win0_4.index t (1 : Fin 2) * 64 + 1 * k.val = k.val; omega

theorem blk_pair (c : Dev nD) (t : Fin cfg0.N) (p : Fin 10) (k : Fin 64) (o : Fin 256) :
    iblk m c 5 t (ix3 p k o) = m ((c : Thread nD τ).loc main_arg5) (ix3 p o k) := by
  show V m c main_v2 (((cfg0.win 5).blk t).view.emb (ix3 p k o)) = _
  have e : ((cfg0.win 5).blk t).view.emb (ix3 p k o) = ix3 p k o := by
    refine funext fun a => Fin.ext ?_
    obtain ⟨-, -, -, -, -, -, -, -, -, -, -, -, -, e0, e1, e2⟩ := idx_facts t
    match a with
    | ⟨0, _⟩ => show win0_5.index t (0 : Fin 3) * 10 + 1 * p.val = p.val; omega
    | ⟨1, _⟩ => show win0_5.index t (1 : Fin 3) * 64 + 1 * k.val = k.val; omega
    | ⟨2, _⟩ => show win0_5.index t (2 : Fin 3) * 256 + 1 * o.val = o.val; omega
  refine (congrArg (V m c main_v2 : S10x64x256.Idx → EReal) e).trans ?_
  rw [V_pair]
  exact transpose_ix3_021_apply _ _ p k o

/-- Entry `(r, o)` of point `t`'s output block sits at batch row `2048 t + r`. -/
theorem emb_out (t : Fin cfg0.N) (r : Fin 2048) (o : Fin 256) :
    ((cfg0.win 6).blk t).view.emb (ix2 r o) = ix2 (row t r) o := by
  refine funext fun a => Fin.ext ?_
  obtain ⟨-, -, e0, e1, -⟩ := idx_facts t
  match a with
  | ⟨0, _⟩ => show win0_6.index t (0 : Fin 2) * 2048 + 1 * r.val = t.val * 2048 + r.val; omega
  | ⟨1, _⟩ => show win0_6.index t (1 : Fin 2) * 256 + 1 * o.val = o.val; omega

/-! ## What a point writes back -/

/-- Point `t` writes back block `t` of `G` of the argument arrays. -/
theorem flushed_eq (c : Dev nD) (t : Fin cfg0.N) :
    (dats m 0 c).flushed 6 t = ((cfg0.win 6).blk t).view.read (Elt Ideal) (Gm m c) := by
  rw [Cert.KernelIdeal.Value.flushed6]
  funext y
  obtain ⟨r, o, rfl⟩ : ∃ (r : Fin 2048) (o : Fin 256), y = ix2 r o := ⟨y 0, y 1, eq_ix2 y⟩
  show out0_6 (iblk m c 0 t) (iblk m c 1 t) (iblk m c 2 t) (iblk m c 3 t) (iblk m c 4 t) (iblk m c 5 t) (ix2 r o)
    = Gm m c (((cfg0.win 6).blk t).view.emb (ix2 r o))
  rw [out_apply, emb_out]
  show _ = at_ (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (row t r) o
  unfold at_
  exact entry_congr (blk_bias m c t o) (funext fun k => blk_x m c t r k) (funext fun k => blk_lin m c t k o)
    (funext fun q => funext fun k => blk_lead m c t q k o) (funext fun p => funext fun k => blk_w1 m c t p k)
    (funext fun p => funext fun k => blk_pair m c t p k o)

/-! ## The cover, and the array after the run -/

theorem mem_blk (t : Fin cfg0.N) (i : S65536x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v3).slice (win0_6.rect t)).set ↔ _
  rw [View.set_slice_whole, Rect.mem_set_unit]
  exact Iff.rfl

/-- Batch row `n` lies in the block of point `n / 2048`. -/
theorem cover (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ := idx_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 256 ≤ (i 1).val ∧ (i 1).val < win0_6.index t (1 : Fin 2) * 256 + 256
    omega

/-- The result array after the run is `G` of the argument arrays. -/
theorem final (c : Dev nD) : (dats m 0 c).arrAt 6 cfg0.N = Gm m c :=
  (dats m 0 c).arrAt_eq_of_cover 6 (Gm m c) (fun t _ => flushed_eq m c t) cover

/-- The idealized kernel's run: the result at `G` of the arguments, the arguments unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrayValue

end
-- ==== Proof.RefOps.lean ====
/-
  The idealized reference's operations, each read at one entry.

  The reference gets its `[64, 256]` right factors by slicing one `[256, 64]` matrix out of a weight stack (for a pair:
  scaling its column `k` by entry `k` of a row of `w1`, the row spread over the 256 output features) and transposing it,
  and multiplies the whole `[65536, 64]` input with each. Read at entry `(b, o)`, a product is the inner product over the
  64 input features of row `b` of the input with row `o` of the sliced (and scaled) matrix.
-/
import proofs.«110697_j34033320854231_1_alg».proof.Proof.Gen.ReferenceIdeal.Run
import proofs.«110697_j34033320854231_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.EntryValue

open Cert.ReferenceIdeal Cert.ReferenceIdeal.Gen Idealize.ShloMosaic Idealize.ShloMosaic.ValueIdx Cert.PolySpec

variable {α : Type}

/-! ## The layout operations at an entry -/

/-- Matrix `p` of a stack `[n, 256, 64]`, sliced out and viewed as `[256, 64]`: entry `(o, k)` is the stack's `(p, o, k)`. -/
theorem sliceMat_apply {n : ℕ} (x : (⟨3, ![n, 256, 64]⟩ : Shape).Idx → α) (p : ℕ)
    (h : (⟨3, ![n, 256, 64]⟩ : Shape).Slices ![p, 0, 0] ⟨3, ![1, 256, 64]⟩)
    (h' : (⟨3, ![1, 256, 64]⟩ : Shape).ShapeCasts ⟨2, ![256, 64]⟩) (o : Fin 256) (k : Fin 64) :
    shapeCast ⟨2, ![256, 64]⟩ (extractStridedSlice ⟨3, ![1, 256, 64]⟩ ![p, 0, 0] x h) h' (ix2 o k)
      = x (ix3 (⟨p, h.2 0⟩ : Fin n) o k) := by
  rw [shapeCast_1ab_ab_apply]
  exact extractStridedSlice_apply _ x h _ _ (fun a => by
    match a with
    | ⟨0, _⟩ => show p = p + 0; omega
    | ⟨1, _⟩ => show o.val = 0 + o.val; omega
    | ⟨2, _⟩ => show k.val = 0 + k.val; omega)

/-- Row `p` of `w1 : [n, 64]`, sliced out, flattened, and spread over 256 rows: entry `(o, k)` is `w1`'s `(p, k)`. -/
theorem rowSpread_apply {n : ℕ} (x : (⟨2, ![n, 64]⟩ : Shape).Idx → α) (p : ℕ)
    (h : (⟨2, ![n, 64]⟩ : Shape).Slices ![p, 0] ⟨2, ![1, 64]⟩)
    (h' : (⟨2, ![1, 64]⟩ : Shape).ShapeCasts ⟨1, ![64]⟩)
    (hb : (⟨1, ![64]⟩ : Shape).BroadcastsInDim ⟨2, ![1, 64]⟩ ![1])
    (hb' : (⟨2, ![1, 64]⟩ : Shape).BroadcastsInDim ⟨2, ![256, 64]⟩ ![0, 1]) (o : Fin 256) (k : Fin 64) :
    broadcastInDim ⟨2, ![256, 64]⟩ ![0, 1] hb' (broadcastInDim ⟨2, ![1, 64]⟩ ![1] hb
      (shapeCast ⟨1, ![64]⟩ (extractStridedSlice ⟨2, ![1, 64]⟩ ![p, 0] x h) h')) (ix2 o k)
      = x (ix2 (⟨p, h.2 0⟩ : Fin n) k) := by
  rw [broadcastInDim_apply _ hb' _ (ix2 o k) (ix2 (0 : Fin 1) k) (fun a => by
    match a with
    | ⟨0, _⟩ => show 0 = if (1 : ℕ) = 1 then 0 else o.val; rw [if_pos rfl]
    | ⟨1, _⟩ => show k.val = if (64 : ℕ) = 1 then 0 else k.val; rw [if_neg (by decide)])]
  rw [broadcastInDim_apply _ hb _ (ix2 (0 : Fin 1) k) (ix1 k) (fun a => by
    match a with
    | ⟨0, _⟩ => show k.val = if (64 : ℕ) = 1 then 0 else k.val; rw [if_neg (by decide)])]
  rw [shapeCast_1a_a_apply]
  exact extractStridedSlice_apply _ x h _ _ (fun a => by
    match a with
    | ⟨0, _⟩ => show p = p + 0; omega
    | ⟨1, _⟩ => show k.val = 0 + k.val; omega)

/-- The bias row `[1, 256]` spread over the batch: entry `(b, o)` is the row's entry `o`. -/
theorem biasSpread_apply (x : (⟨2, ![1, 256]⟩ : Shape).Idx → α)
    (hb : (⟨2, ![1, 256]⟩ : Shape).BroadcastsInDim ⟨2, ![65536, 256]⟩ ![0, 1]) (b : Fin 65536) (o : Fin 256) :
    broadcastInDim ⟨2, ![65536, 256]⟩ ![0, 1] hb x (ix2 b o) = x (ix2 (0 : Fin 1) o) :=
  broadcastInDim_apply _ hb x (ix2 b o) (ix2 (0 : Fin 1) o) (fun a => by
    match a with
    | ⟨0, _⟩ => show 0 = if (1 : ℕ) = 1 then 0 else b.val; rw [if_pos rfl]
    | ⟨1, _⟩ => show o.val = if (256 : ℕ) = 1 then 0 else o.val; rw [if_neg (by decide)])

/-! ## The host's matrix product at an entry -/

/-- The left operand is read in the output's row. -/
theorem lhs_row (i : S65536x256.Idx) (q : dot_S65536x64_S64x256_S65536x256_1_0_0_1_n_n.contr.Idx) :
    (dot_S65536x64_S64x256_S65536x256_1_0_0_1_n_n.lhsIdx i q 0).val = (i 0).val := by
  unfold DotDims.lhsIdx
  rw [dif_neg (show ¬(0 : Fin S65536x64.rank) ∈ dot_S65536x64_S64x256_S65536x256_1_0_0_1_n_n.lhsBatch by decide),
    dif_pos (show (0 : Fin S65536x64.rank) ∈ dot_S65536x64_S64x256_S65536x256_1_0_0_1_n_n.lhsNonContracting by decide)]
  rfl

/-- The right operand is read in the output's column. -/
theorem rhs_col (i : S65536x256.Idx) (q : dot_S65536x64_S64x256_S65536x256_1_0_0_1_n_n.contr.Idx) :
    (dot_S65536x64_S64x256_S65536x256_1_0_0_1_n_n.rhsIdx i q 1).val = (i 1).val := by
  unfold DotDims.rhsIdx
  rw [dif_neg (show ¬(1 : Fin S64x256.rank) ∈ dot_S65536x64_S64x256_S65536x256_1_0_0_1_n_n.rhsBatch by decide),
    dif_pos (show (1 : Fin S64x256.rank) ∈ dot_S65536x64_S64x256_S65536x256_1_0_0_1_n_n.rhsNonContracting by decide)]
  rfl

/-- The host's product of the input with a `[64, 256]` matrix, at entry `(b, o)`: the inner product of row `b` with
    column `o`. -/
theorem dot_apply (A : FVec Ideal S65536x64 .f32) (B : FVec Ideal S64x256 .f32) (b : Fin 65536) (o : Fin 256) :
    Host.dotGeneral dot_S65536x64_S64x256_S65536x256_1_0_0_1_n_n none A B (ix2 b o)
      = dot64 (fun k => A (ix2 b k)) (fun k => B (ix2 k o)) := by
  simp only [Host.dotGeneral]
  rw [Ideal.dotGeneral_apply,
    ← Equiv.sum_comp (contrEquiv1 dot_S65536x64_S64x256_S65536x256_1_0_0_1_n_n 64 rfl rfl).symm]
  unfold dot64
  refine Finset.sum_congr rfl fun k _ => ?_
  have hk := contrEquiv1_symm_val dot_S65536x64_S64x256_S65536x256_1_0_0_1_n_n 64 rfl rfl k
  have el : dot_S65536x64_S64x256_S65536x256_1_0_0_1_n_n.lhsIdx (ix2 b o)
      ((contrEquiv1 dot_S65536x64_S64x256_S65536x256_1_0_0_1_n_n 64 rfl rfl).symm k) = ix2 b k :=
    funext fun a => Fin.ext (by
      match a with
      | ⟨0, _⟩ => exact lhs_row _ _
      | ⟨1, _⟩ => exact (dot_S65536x64_S64x256_S65536x256_1_0_0_1_n_n.lhsIdx_val_of_single rfl _ _).trans hk)
  have er : dot_S65536x64_S64x256_S65536x256_1_0_0_1_n_n.rhsIdx (ix2 b o)
      ((contrEquiv1 dot_S65536x64_S64x256_S65536x256_1_0_0_1_n_n 64 rfl rfl).symm k) = ix2 k o :=
    funext fun a => Fin.ext (by
      match a with
      | ⟨0, _⟩ => exact (dot_S65536x64_S64x256_S65536x256_1_0_0_1_n_n.rhsIdx_val_of_single rfl _ _).trans hk
      | ⟨1, _⟩ => exact rhs_col _ _)
  rw [el, er]

/-! ## The same at the printed program's shapes, the axis lists as variables

The axis lists (`[1, 0]`, `![0, 1]`, `![1]`) are lists and vectors of axis numbers whose type mentions the operand's
rank; stated with the list a variable and its value a hypothesis, these equations apply wherever the operation occurs. -/

theorem tr_apply (perm : List (Fin S256x64.rank)) (h : S256x64.Transposes perm S64x256) (hp : perm = [1, 0])
    (X : S256x64.Idx → α) (k : Fin 64) (o : Fin 256) : transpose S64x256 perm X h (ix2 k o) = X (ix2 o k) := by
  subst hp; exact transpose_ix2_apply X _ k o

theorem bias_apply (dims : Fin S1x256.rank → Fin S65536x256.rank) (h : S1x256.BroadcastsInDim S65536x256 dims)
    (hd : dims = ![0, 1]) (x : S1x256.Idx → α) (b : Fin 65536) (o : Fin 256) :
    broadcastInDim S65536x256 dims h x (ix2 b o) = x (ix2 (0 : Fin 1) o) := by
  subst hd; exact biasSpread_apply x _ b o

theorem row_apply (x : S10x64.Idx → α) (p : ℕ) (h : S10x64.Slices ![p, 0] S1x64)
    (d1 : Fin S64.rank → Fin S1x64.rank) (hb : S64.BroadcastsInDim S1x64 d1) (hd1 : d1 = ![1])
    (d2 : Fin S1x64.rank → Fin S256x64.rank) (hb' : S1x64.BroadcastsInDim S256x64 d2) (hd2 : d2 = ![0, 1])
    (o : Fin 256) (k : Fin 64) :
    broadcastInDim S256x64 d2 hb' (broadcastInDim S1x64 d1 hb
      (shapeCast S64 (extractStridedSlice S1x64 ![p, 0] x h) shapeCasts_S1x64_S64)) (ix2 o k)
      = x (ix2 (⟨p, h.2 0⟩ : Fin 10) k) := by
  subst hd1 hd2; exact rowSpread_apply x p h _ _ _ o k

theorem lead_apply (x : S4x256x64.Idx → α) (p : ℕ) (h : S4x256x64.Slices ![p, 0, 0] S1x256x64)
    (o : Fin 256) (k : Fin 64) :
    shapeCast S256x64 (extractStridedSlice S1x256x64 ![p, 0, 0] x h) shapeCasts_S1x256x64_S256x64 (ix2 o k)
      = x (ix3 (⟨p, h.2 0⟩ : Fin 4) o k) :=
  sliceMat_apply x p h _ o k

theorem pair_apply (x : S10x256x64.Idx → α) (p : ℕ) (h : S10x256x64.Slices ![p, 0, 0] S1x256x64)
    (o : Fin 256) (k : Fin 64) :
    shapeCast S256x64 (extractStridedSlice S1x256x64 ![p, 0, 0] x h) shapeCasts_S1x256x64_S256x64 (ix2 o k)
      = x (ix3 (⟨p, h.2 0⟩ : Fin 10) o k) :=
  sliceMat_apply x p h _ o k

end Cert.ReferenceIdeal.EntryValue

end
-- ==== Proof.RefValue.lean ====
/-
  The idealized reference's result array is the specification `G` of the argument arrays: at entry `(b, o)` every one
  of its fifteen products is an inner product of row `b` of the input with a weight row (scaled entrywise by a row of
  `w1`, for a pair), and its sums and products are taken in the specification's order.
-/
import proofs.«110697_j34033320854231_1_alg».proof.Proof.Gen.ReferenceIdeal.Read
import proofs.«110697_j34033320854231_1_alg».proof.Proof.RefOps

noncomputable section

open scoped BigOperators

namespace Cert.ReferenceIdeal.EntryValue

open Cert.ReferenceIdeal Cert.ReferenceIdeal.Gen Idealize.ShloMosaic Idealize.ShloMosaic.ValueIdx Cert.PolySpec

/-- The reference's last stage, as a function of the six argument arrays, is `G`: its 124 operations opened, each
    read at the entry. -/
theorem stage_eq (x0 : (⟨S65536x64, .f32⟩ : BufTy).Contents (Elt Ideal)) (x1 : (⟨S1x256, .f32⟩ : BufTy).Contents (Elt Ideal))
    (x2 : (⟨S256x64, .f32⟩ : BufTy).Contents (Elt Ideal)) (x3 : (⟨S4x256x64, .f32⟩ : BufTy).Contents (Elt Ideal))
    (x4 : (⟨S10x64, .f32⟩ : BufTy).Contents (Elt Ideal)) (x5 : (⟨S10x256x64, .f32⟩ : BufTy).Contents (Elt Ideal)) :
    Cert.ReferenceIdeal.Read.val_main_v123 (F := Ideal) x0 x1 x2 x3 x4 x5 = G x0 x1 x2 x3 x4 x5 := by
  funext i
  obtain ⟨b, o, rfl⟩ : ∃ (b : Fin 65536) (o : Fin 256), i = ix2 b o := ⟨i 0, i 1, eq_ix2 i⟩
  rw [G_ix2]
  simp only [
    Cert.ReferenceIdeal.Read.val_main_v123, Cert.ReferenceIdeal.Read.val_main_v122, Cert.ReferenceIdeal.Read.val_main_v121, Cert.ReferenceIdeal.Read.val_main_v120,
    Cert.ReferenceIdeal.Read.val_main_v119, Cert.ReferenceIdeal.Read.val_main_v118, Cert.ReferenceIdeal.Read.val_main_v117, Cert.ReferenceIdeal.Read.val_main_v116,
    Cert.ReferenceIdeal.Read.val_main_v115, Cert.ReferenceIdeal.Read.val_main_v114, Cert.ReferenceIdeal.Read.val_main_v113, Cert.ReferenceIdeal.Read.val_main_v112,
    Cert.ReferenceIdeal.Read.val_main_v111, Cert.ReferenceIdeal.Read.val_main_v110, Cert.ReferenceIdeal.Read.val_main_v109, Cert.ReferenceIdeal.Read.val_main_v108,
    Cert.ReferenceIdeal.Read.val_main_v107, Cert.ReferenceIdeal.Read.val_main_v106, Cert.ReferenceIdeal.Read.val_main_v105, Cert.ReferenceIdeal.Read.val_main_v104,
    Cert.ReferenceIdeal.Read.val_main_v103, Cert.ReferenceIdeal.Read.val_main_v102, Cert.ReferenceIdeal.Read.val_main_v101, Cert.ReferenceIdeal.Read.val_main_v100,
    Cert.ReferenceIdeal.Read.val_main_v99, Cert.ReferenceIdeal.Read.val_main_v98, Cert.ReferenceIdeal.Read.val_main_v97, Cert.ReferenceIdeal.Read.val_main_v96,
    Cert.ReferenceIdeal.Read.val_main_v95, Cert.ReferenceIdeal.Read.val_main_v94, Cert.ReferenceIdeal.Read.val_main_v93, Cert.ReferenceIdeal.Read.val_main_v92,
    Cert.ReferenceIdeal.Read.val_main_v91, Cert.ReferenceIdeal.Read.val_main_v90, Cert.ReferenceIdeal.Read.val_main_v89, Cert.ReferenceIdeal.Read.val_main_v88,
    Cert.ReferenceIdeal.Read.val_main_v87, Cert.ReferenceIdeal.Read.val_main_v86, Cert.ReferenceIdeal.Read.val_main_v85, Cert.ReferenceIdeal.Read.val_main_v84,
    Cert.ReferenceIdeal.Read.val_main_v83, Cert.ReferenceIdeal.Read.val_main_v82, Cert.ReferenceIdeal.Read.val_main_v81, Cert.ReferenceIdeal.Read.val_main_v80,
    Cert.ReferenceIdeal.Read.val_main_v79, Cert.ReferenceIdeal.Read.val_main_v78, Cert.ReferenceIdeal.Read.val_main_v77, Cert.ReferenceIdeal.Read.val_main_v76,
    Cert.ReferenceIdeal.Read.val_main_v75, Cert.ReferenceIdeal.Read.val_main_v74, Cert.ReferenceIdeal.Read.val_main_v73, Cert.ReferenceIdeal.Read.val_main_v72,
    Cert.ReferenceIdeal.Read.val_main_v71, Cert.ReferenceIdeal.Read.val_main_v70, Cert.ReferenceIdeal.Read.val_main_v69, Cert.ReferenceIdeal.Read.val_main_v68,
    Cert.ReferenceIdeal.Read.val_main_v67, Cert.ReferenceIdeal.Read.val_main_v66, Cert.ReferenceIdeal.Read.val_main_v65, Cert.ReferenceIdeal.Read.val_main_v64,
    Cert.ReferenceIdeal.Read.val_main_v63, Cert.ReferenceIdeal.Read.val_main_v62, Cert.ReferenceIdeal.Read.val_main_v61, Cert.ReferenceIdeal.Read.val_main_v60,
    Cert.ReferenceIdeal.Read.val_main_v59, Cert.ReferenceIdeal.Read.val_main_v58, Cert.ReferenceIdeal.Read.val_main_v57, Cert.ReferenceIdeal.Read.val_main_v56,
    Cert.ReferenceIdeal.Read.val_main_v55, Cert.ReferenceIdeal.Read.val_main_v54, Cert.ReferenceIdeal.Read.val_main_v53, Cert.ReferenceIdeal.Read.val_main_v52,
    Cert.ReferenceIdeal.Read.val_main_v51, Cert.ReferenceIdeal.Read.val_main_v50, Cert.ReferenceIdeal.Read.val_main_v49, Cert.ReferenceIdeal.Read.val_main_v48,
    Cert.ReferenceIdeal.Read.val_main_v47, Cert.ReferenceIdeal.Read.val_main_v46, Cert.ReferenceIdeal.Read.val_main_v45, Cert.ReferenceIdeal.Read.val_main_v44,
    Cert.ReferenceIdeal.Read.val_main_v43, Cert.ReferenceIdeal.Read.val_main_v42, Cert.ReferenceIdeal.Read.val_main_v41, Cert.ReferenceIdeal.Read.val_main_v40,
    Cert.ReferenceIdeal.Read.val_main_v39, Cert.ReferenceIdeal.Read.val_main_v38, Cert.ReferenceIdeal.Read.val_main_v37, Cert.ReferenceIdeal.Read.val_main_v36,
    Cert.ReferenceIdeal.Read.val_main_v35, Cert.ReferenceIdeal.Read.val_main_v34, Cert.ReferenceIdeal.Read.val_main_v33, Cert.ReferenceIdeal.Read.val_main_v32,
    Cert.ReferenceIdeal.Read.val_main_v31, Cert.ReferenceIdeal.Read.val_main_v30, Cert.ReferenceIdeal.Read.val_main_v29, Cert.ReferenceIdeal.Read.val_main_v28,
    Cert.ReferenceIdeal.Read.val_main_v27, Cert.ReferenceIdeal.Read.val_main_v26, Cert.ReferenceIdeal.Read.val_main_v25, Cert.ReferenceIdeal.Read.val_main_v24,
    Cert.ReferenceIdeal.Read.val_main_v23, Cert.ReferenceIdeal.Read.val_main_v22, Cert.ReferenceIdeal.Read.val_main_v21, Cert.ReferenceIdeal.Read.val_main_v20,
    Cert.ReferenceIdeal.Read.val_main_v19, Cert.ReferenceIdeal.Read.val_main_v18, Cert.ReferenceIdeal.Read.val_main_v17, Cert.ReferenceIdeal.Read.val_main_v16,
    Cert.ReferenceIdeal.Read.val_main_v15, Cert.ReferenceIdeal.Read.val_main_v14, Cert.ReferenceIdeal.Read.val_main_v13, Cert.ReferenceIdeal.Read.val_main_v12,
    Cert.ReferenceIdeal.Read.val_main_v11, Cert.ReferenceIdeal.Read.val_main_v10, Cert.ReferenceIdeal.Read.val_main_v9, Cert.ReferenceIdeal.Read.val_main_v8,
    Cert.ReferenceIdeal.Read.val_main_v7, Cert.ReferenceIdeal.Read.val_main_v6, Cert.ReferenceIdeal.Read.val_main_v5, Cert.ReferenceIdeal.Read.val_main_v4,
    Cert.ReferenceIdeal.Read.val_main_v3, Cert.ReferenceIdeal.Read.val_main_v2, Cert.ReferenceIdeal.Read.val_main_v1, Cert.ReferenceIdeal.Read.val_main_v0]
  simp only [addf_apply, mulf_apply, dot_apply, bias_apply, tr_apply, lead_apply, pair_apply, row_apply]
  rfl

/-- The reference run's result term is `G` of the argument arrays as launched. -/
theorem res_eq (m : (ℓ : Loc nD τ sig) → Buf (Elt Ideal) ℓ) (c : Dev nD) :
    Cert.ReferenceIdeal.Value.res_main_v123 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (Cert.ReferenceIdeal.Read.val_main_v123_eq m c).trans (stage_eq _ _ _ _ _ _)

end Cert.ReferenceIdeal.EntryValue

end
-- ==== Proof.lean ====
/-
  The certificate of the degree-four polynomial layer: the Pallas kernel against its jnp reference.

  Both programs compute, for batch row `b` and output feature `o`,

    res[b, o] = d0[o] + ⟨x_b, d1t[o]⟩ + Σ_{i<4} ⟨x_b, d1[i, o]⟩ · Π_{j ≤ i} ⟨x_b, w2[p(i,j), o] ⊙ w1[p(i,j)]⟩

  (Proof/Spec.lean: `G`). The kernel works on blocks of 2048 batch rows against weights the host has transposed, and
  rounds the factors of its fifteen matrix products to bf16 — the identity on the extended reals; the reference
  slices, scales and transposes the weights itself and multiplies the whole input at once. Read entry by entry the two
  build the same tree of sums and products in the same order, so no law of the extended reals is needed and the
  finiteness of the inputs is never used.

  The three frames are the generated ones (the reference's is its generated run with the result dropped); the ideal
  pass rewrote nothing, so `preserves` is trivial; `algebraic` sets the kernel's run (Proof/KernelValue.lean: the result
  array is `G` of the arguments) beside the reference's (Proof/RefValue.lean: its result term is `G` of the arguments).
-/
import proofs.«110697_j34033320854231_1_alg».proof.Defs
import proofs.«110697_j34033320854231_1_alg».proof.Proof.Gen.Kernel
import proofs.«110697_j34033320854231_1_alg».proof.Proof.Gen.Kernel.Frame
import proofs.«110697_j34033320854231_1_alg».proof.Proof.Gen.KernelIdeal
import proofs.«110697_j34033320854231_1_alg».proof.Proof.Gen.KernelIdeal.Frame
import proofs.«110697_j34033320854231_1_alg».proof.Proof.Gen.KernelIdeal.Value
import proofs.«110697_j34033320854231_1_alg».proof.Proof.Gen.ReferenceIdeal
import proofs.«110697_j34033320854231_1_alg».proof.Proof.Gen.ReferenceIdeal.Run
import proofs.«110697_j34033320854231_1_alg».proof.Proof.Gen.ReferenceIdeal.Read
import proofs.«110697_j34033320854231_1_alg».proof.Proof.Gen.Pre_finite_inputs
import proofs.«110697_j34033320854231_1_alg».proof.Proof.KernelValue
import proofs.«110697_j34033320854231_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result array ends at `G` of its arguments and the reference's at `G` of its own,
    which agree with the kernel's. -/
theorem algebraic : Cert.algebraic_KernelIdeal_ReferenceIdeal := by
  intro m ρ m' ρ' _ hagree
  refine ⟨fun c => Cert.KernelIdeal.ArrayValue.Gm m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.EntryValue.res_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
